-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel

variable [Facts]

def fn {F : FTy → Type} [FloatOps F] (main_arg0 : FVec F S8192x4 .f32) (main_arg1 : FVec F S8192x4 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  main_v8
-- ==== Kernel.lean ====
abbrev S8192x4 : Shape := ⟨2, ![8192, 4]⟩
abbrev S8192 : Shape := ⟨1, ![8192]⟩
abbrev S512x4 : Shape := ⟨2, ![512, 4]⟩
abbrev S512 : Shape := ⟨1, ![512]⟩
abbrev S1x512 : Shape := ⟨2, ![1, 512]⟩
abbrev S512x1 : Shape := ⟨2, ![512, 1]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192, .f32⟩
  | .local _ .vmem, ⟨0, _⟩ => ⟨S512x4, .f32⟩
  | .local _ .vmem, ⟨1, _⟩ => ⟨S512x4, .f32⟩
  | .local _ .vmem, ⟨2, _⟩ => ⟨S512x4, .f32⟩
  | .local _ .vmem, ⟨3, _⟩ => ⟨S512x4, .f32⟩
  | .local _ .vmem, ⟨4, _⟩ => ⟨S512, .f32⟩
  | .local _ .vmem, ⟨5, _⟩ => ⟨S512, .f32⟩
  | .local _ .vmem, ⟨6, _⟩ => ⟨S1x512, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_14 : BitVec 32 := 0#32
  let v106 : BitVec 1 := Scalar.cmpi .ne v105 c0_i32_14
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x4_S512x4_0_0 : ∀ a, (![0, 0] : Fin 2 → Nat) a + S512x4.size a ≤ S512x4.size a
  h_S512x4 : 0 < S512x4.numel
  slices_S512x4_o0_0_S512x1 : S512x4.Slices ![0, 0] S512x1
  shapeCasts_S512x1_S512 : S512x1.ShapeCasts S512
  slices_S512x4_o0_2_S512x1 : S512x4.Slices ![0, 2] S512x1
  slices_S512x4_o0_1_S512x1 : S512x4.Slices ![0, 1] S512x1
  slices_S512x4_o0_3_S512x1 : S512x4.Slices ![0, 3] S512x1
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [0] S512
  shapeCasts_S1x512_S512 : S1x512.ShapeCasts S512
  inb_S512_S512_0 : ∀ a, (![0] : Fin 1 → Nat) a + S512.size a ≤ S512.size a
  h_S512 : 0 < S512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S8192x4.size a
  hwx0_0 : ∀ i : grid0.Coords, EltTy.bits .f32 = 32 ∨ (Rect.block (s := S8192x4) S512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S8192x4.size a
  hwx0_1 : ∀ i : grid0.Coords, EltTy.bits .f32 = 32 ∨ (Rect.block (s := S8192x4) S512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)

variable [Facts₀]

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4 : Shape := ⟨2, ![8192, 4]⟩
abbrev S8192x1 : Shape := ⟨2, ![8192, 1]⟩
abbrev S8192 : Shape := ⟨1, ![8192]⟩
abbrev S_ : Shape := ⟨0, ![]⟩
abbrev S8192x2 : Shape := ⟨2, ![8192, 2]⟩
abbrev S8192x1x2 : Shape := ⟨3, ![8192, 1, 2]⟩
abbrev S1x8192x2 : Shape := ⟨3, ![1, 8192, 2]⟩
abbrev S8192x8192x2 : Shape := ⟨3, ![8192, 8192, 2]⟩
abbrev S8192x8192x1 : Shape := ⟨3, ![8192, 8192, 1]⟩
abbrev S8192x8192 : Shape := ⟨2, ![8192, 8192]⟩
abbrev S1x8192 : Shape := ⟨2, ![1, 8192]⟩

abbrev nBuf : Space → Nat
  | .hbm => 126
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192, .f32⟩
  | .hbm, ⟨9, _⟩ => ⟨S8192x1, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4, .f32⟩
  | .hbm, ⟨35, _⟩ => ⟨S8192x1, .f32⟩
  | .hbm, ⟨36, _⟩ => ⟨S8192, .f32⟩
  | .hbm, ⟨37, _⟩ => ⟨S8192x1, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192, .f32⟩
  | .hbm, ⟨42, _⟩ => ⟨S8192x1, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192, .f32⟩
  | .hbm, ⟨47, _⟩ => ⟨S8192x1, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192, .f32⟩
  | .hbm, ⟨52, _⟩ => ⟨S8192x1, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x4, .f32⟩
  | .hbm, ⟨68, _⟩ => ⟨S8192x1, .f32⟩
  | .hbm, ⟨69, _⟩ => ⟨S8192, .f32⟩
  | .hbm, ⟨70, _⟩ => ⟨S8192x1, .f32⟩
  | .hbm, ⟨71, _⟩ => ⟨S8192, .f32⟩
  | .hbm, ⟨72, _⟩ => ⟨S8192, .f32⟩
  | .hbm, ⟨73, _⟩ => ⟨S8192x1, .f32⟩
  | .hbm, ⟨74, _⟩ => ⟨S8192, .f32⟩
  | .hbm, ⟨75, _⟩ => ⟨S8192x1, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S8192x1, .f32⟩
  | .hbm, ⟨80, _⟩ => ⟨S8192, .f32⟩
  | .hbm, ⟨81, _⟩ => ⟨S8192x1, .f32⟩
  | .hbm, ⟨82, _⟩ => ⟨S8192, .f32⟩
  | .hbm, ⟨83, _⟩ => ⟨S8192, .f32⟩
  | .hbm, ⟨84, _⟩ => ⟨S8192x1, .f32⟩
  | .hbm, ⟨85, _⟩ => ⟨S8192, .f32⟩
  | .hbm, ⟨86, _⟩ => ⟨S8192x1, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S8192x2, .f32⟩
  | .hbm, ⟨91, _⟩ => ⟨S8192x1x2, .f32⟩
  | .hbm, ⟨92, _⟩ => ⟨S8192x2, .f32⟩
  | .hbm, ⟨93, _⟩ => ⟨S1x8192x2, .f32⟩
  | .hbm, ⟨94, _⟩ => ⟨S8192x8192x2, .f32⟩
  | .hbm, ⟨95, _⟩ => ⟨S8192x8192x2, .f32⟩
  | .hbm, ⟨96, _⟩ => ⟨S8192x8192x2, .f32⟩
  | .hbm, ⟨97, _⟩ => ⟨S8192x2, .f32⟩
  | .hbm, ⟨98, _⟩ => ⟨S8192x1x2, .f32⟩
  | .hbm, ⟨99, _⟩ => ⟨S8192x2, .f32⟩
  | .hbm, ⟨100, _⟩ => ⟨S1x8192x2, .f32⟩
  | .hbm, ⟨101, _⟩ => ⟨S8192x8192x2, .f32⟩
  | .hbm, ⟨102, _⟩ => ⟨S8192x8192x2, .f32⟩
  | .hbm, ⟨103, _⟩ => ⟨S8192x8192x2, .f32⟩
  | .hbm, ⟨104, _⟩ => ⟨S8192x8192x2, .f32⟩
  | .hbm, ⟨105, _⟩ => ⟨S_, .f32⟩
  | .hbm, ⟨106, _⟩ => ⟨S_, .f32⟩
  | .hbm, ⟨107, _⟩ => ⟨S8192x8192x2, .f32⟩
  | .hbm, ⟨108, _⟩ => ⟨S8192x8192x2, .f32⟩
  | .hbm, ⟨109, _⟩ => ⟨S8192x8192x1, .f32⟩
  | .hbm, ⟨110, _⟩ => ⟨S8192x8192, .f32⟩
  | .hbm, ⟨111, _⟩ => ⟨S8192x8192x1, .f32⟩
  | .hbm, ⟨112, _⟩ => ⟨S8192x8192, .f32⟩
  | .hbm, ⟨113, _⟩ => ⟨S8192x8192, .f32⟩
  | .hbm, ⟨114, _⟩ => ⟨S8192x1, .f32⟩
  | .hbm, ⟨115, _⟩ => ⟨S1x8192, .f32⟩
  | .hbm, ⟨116, _⟩ => ⟨S8192x8192, .f32⟩
  | .hbm, ⟨117, _⟩ => ⟨S8192x8192, .f32⟩
  | .hbm, ⟨118, _⟩ => ⟨S8192x8192, .f32⟩
  | .hbm, ⟨119, _⟩ => ⟨S8192x8192, .f32⟩
  | .hbm, ⟨120, _⟩ => ⟨S8192x8192, .f32⟩
  | .hbm, ⟨121, _⟩ => ⟨S_, .f32⟩
  | .hbm, ⟨122, _⟩ => ⟨S8192, .f32⟩
  | .hbm, ⟨123, _⟩ => ⟨S_, .f32⟩
  | .hbm, ⟨124, _⟩ => ⟨S8192, .f32⟩
  | .hbm, ⟨125, _⟩ => ⟨S8192, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_cst_1 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_2 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_cst_3 : Ref sig .tc := ⟨.hbm, 105, rfl⟩
abbrev main_call0_v0 : Ref sig .tc := ⟨.hbm, 106, rfl⟩
abbrev main_call0_v1 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_cst_4 : Ref sig .tc := ⟨.hbm, 121, rfl⟩
abbrev main_v112 : Ref sig .tc := ⟨.hbm, 122, rfl⟩
abbrev main_cst_5 : Ref sig .tc := ⟨.hbm, 123, rfl⟩
abbrev main_v113 : Ref sig .tc := ⟨.hbm, 124, rfl⟩
abbrev main_v114 : Ref sig .tc := ⟨.hbm, 125, rfl⟩

abbrev nD : Nat := 1
abbrev τ : Topo := Topo.v7x

variable {F : FTy → Type} [FloatOps F]

class Facts₀ : Prop where
  slices_S8192x4_S8192x1_0_0 : S8192x4.Slices ![0, 0] S8192x1
  shapeCasts_S8192x1_S8192 : S8192x1.ShapeCasts S8192
  slices_S8192x4_S8192x1_0_2 : S8192x4.Slices ![0, 2] S8192x1
  slices_S8192x4_S8192x1_0_1 : S8192x4.Slices ![0, 1] S8192x1
  slices_S8192x4_S8192x1_0_3 : S8192x4.Slices ![0, 3] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x1_S8192x1_S8192x4_d1 : Shape.Concatenates [S8192x1, S8192x1, S8192x1, S8192x1] S8192x4 1
  slices_S8192x4_S8192x2_0_0 : S8192x4.Slices ![0, 0] S8192x2
  bcast_S8192x2_S8192x1x2_0_2 : S8192x2.BroadcastsInDim S8192x1x2 (![0, 2] : Fin 2 → Fin S8192x1x2.rank)
  bcast_S8192x2_S1x8192x2_1_2 : S8192x2.BroadcastsInDim S1x8192x2 (![1, 2] : Fin 2 → Fin S1x8192x2.rank)
  bcast_S8192x1x2_S8192x8192x2_0_1_2 : S8192x1x2.BroadcastsInDim S8192x8192x2 (![0, 1, 2] : Fin 3 → Fin S8192x8192x2.rank)
  bcast_S1x8192x2_S8192x8192x2_0_1_2 : S1x8192x2.BroadcastsInDim S8192x8192x2 (![0, 1, 2] : Fin 3 → Fin S8192x8192x2.rank)
  slices_S8192x4_S8192x2_0_2 : S8192x4.Slices ![0, 2] S8192x2
  bcast_S_S8192x8192x2 : S_.BroadcastsInDim S8192x8192x2 (![] : Fin 0 → Fin S8192x8192x2.rank)
  slices_S8192x8192x2_S8192x8192x1_0_0_0 : S8192x8192x2.Slices ![0, 0, 0] S8192x8192x1
  shapeCasts_S8192x8192x1_S8192x8192 : S8192x8192x1.ShapeCasts S8192x8192
  slices_S8192x8192x2_S8192x8192x1_0_0_1 : S8192x8192x2.Slices ![0, 0, 1] S8192x8192x1
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d0 : S8192x8192.ReducesTo [0] S8192
  h_S_ : 0 < S_.numel

variable [Facts₀]

class Facts : Prop extends Facts₀ where

variable [Facts]
-- ==== Proof.IouSpec.lean ====
/-
  What both programs compute, as one function of the two box arrays.

  A box is four numbers (a, b, c, d). Its corners are put in order: x₁ = min a c, y₁ = min b d,
  x₂ = max (max a c) (x₁ + 1), y₂ = max (max b d) (y₁ + 1); its area is (x₂ − x₁)(y₂ − y₁). For a predicted box p and
  a true box t the intersection is max 0 (min x₂ₚ x₂ₜ − max x₁ₚ x₁ₜ) · max 0 (min y₂ₚ y₂ₜ − max y₁ₚ y₁ₜ) and the
  overlap ratio is intersection / (areaₚ + areaₜ − intersection). The loss at true box j is 1 minus the largest overlap
  ratio of box j with any predicted box: 1 − sup_i ratio (p_i) (t_j). Everything is read on the extended reals, and the
  three constants stay the float words the programs print (1.0, 0.0 and −∞), so neither side is ever evaluated.
-/
import Idealize.ShloMosaic.PureOps.Ideal
import Idealize.ShloMosaic.Lib.ValueIdx
import Mathlib.Data.Finset.Lattice.Fold

noncomputable section

namespace Cert.Iou

open Idealize.ShloMosaic Idealize.ShloMosaic.ValueIdx

/-- The float word 1.0. -/
abbrev one : Ideal .f32 := Ideal.ofBits .f32 0x3F800000#32
/-- The float word +0.0. -/
abbrev zero : Ideal .f32 := Ideal.ofBits .f32 0x00000000#32

/-- A box's four numbers. -/
abbrev Box : Type := Fin 4 → Ideal .f32

/-- The left edge: the smaller of the two x coordinates. -/
def x1 (b : Box) : Ideal .f32 := min (b 0) (b 2)
/-- The lower edge: the smaller of the two y coordinates. -/
def y1 (b : Box) : Ideal .f32 := min (b 1) (b 3)
/-- The right edge: the larger x coordinate, at least one past the left edge. -/
def x2 (b : Box) : Ideal .f32 := max (max (b 0) (b 2)) (x1 b + one)
/-- The upper edge: the larger y coordinate, at least one past the lower edge. -/
def y2 (b : Box) : Ideal .f32 := max (max (b 1) (b 3)) (y1 b + one)
/-- The ordered edges, themselves laid out as a box: (x₁, y₁, x₂, y₂). -/
def ordered (b : Box) : Box := ![x1 b, y1 b, x2 b, y2 b]
/-- The area between the ordered edges. -/
def area (b : Box) : Ideal .f32 := (x2 b - x1 b) * (y2 b - y1 b)

/-- The width of the overlap of a predicted and a true box, clipped at zero. -/
def overlapX (p t : Box) : Ideal .f32 := max zero (min (x2 p) (x2 t) - max (x1 p) (x1 t))
/-- The height of the overlap, clipped at zero. -/
def overlapY (p t : Box) : Ideal .f32 := max zero (min (y2 p) (y2 t) - max (y1 p) (y1 t))
/-- The area of the overlap. -/
def inter (p t : Box) : Ideal .f32 := overlapX p t * overlapY p t
/-- The overlap ratio: intersection over union. -/
def ratio (p t : Box) : Ideal .f32 := Ideal.div (inter p t) (area p + area t - inter p t)

/-- Row `i` of an `[n, 4]` array, as a box. -/
def box {n : ℕ} (A : (⟨2, ![n, 4]⟩ : Shape).Idx → Ideal .f32) (i : Fin n) : Box := fun k => A (ix2 i k)

/-- The loss: at true box `j`, one minus the largest overlap ratio with any predicted box. -/
def loss {n k : ℕ} (P : (⟨2, ![n, 4]⟩ : Shape).Idx → Ideal .f32) (T : (⟨2, ![k, 4]⟩ : Shape).Idx → Ideal .f32) :
    (⟨1, ![k]⟩ : Shape).Idx → Ideal .f32 :=
  fun j => one - (Finset.univ : Finset (Fin n)).sup fun i => ratio (box P i) (box T (j 0))

end Cert.Iou

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.RefBoxes.lean ====
/-
  The reference's first half, read at an index: each array of boxes with its corners put in order. For a row `i` of
  an `[8192, 4]` array the reference takes the four columns, forms x₁ = min of columns 0 and 2, y₁ = min of columns 1
  and 3, x₂ = max (max of columns 0 and 2) (x₁ + 1), y₂ = max (max of columns 1 and 3) (y₁ + 1), and joins the four
  results side by side into a new `[8192, 4]` array; its row `i` is the ordered box of row `i`. The area of a box
  is then read off the columns of that array.
-/
import proofs.«122908_j63170378990199_1_alg».proof.Proof.RefRead
import proofs.«122908_j63170378990199_1_alg».proof.Proof.IouSpec
import proofs.«122908_j63170378990199_1_alg».proof.Proof.LibCols

noncomputable section

namespace Cert.ReferenceIdeal.Boxes

open Cert.ReferenceIdeal Cert.ReferenceIdeal.ReadP Idealize.ShloMosaic Idealize.ShloMosaic.ValueIdx Cert.Iou
open Cert.LibCols (sliceCol_apply concat4_apply)

/-- An array of 8192 boxes. -/
abbrev Arr : Type := S8192x4.Idx → Ideal .f32

/-- The index `(i)` of a length-8192 vector, seen as the row index of an `[8192, 1]` column. -/
theorem rowOfCol (i : Fin 8192) (f : S8192x1.Idx → S8192.Idx)
    (hf : ∀ j : S8192x1.Idx, (f j 0).val = (j 0).val) : f (ix2 i (0 : Fin 1)) = ix1 i :=
  funext fun a => Fin.ext (by match a with | ⟨0, _⟩ => exact hf _)

/-! ## The predicted boxes (the first argument) -/

theorem p_left (P : Arr) (i : Fin 8192) : val_main_v4 (F := Ideal) P (ix1 i) = x1 (box P i) := by
  unfold val_main_v4 val_main_v1 val_main_v0 val_main_v3 val_main_v2
  exact congrArg₂ min (sliceCol_apply 0 P _ _ i) (sliceCol_apply 2 P _ _ i)

theorem p_lower (P : Arr) (i : Fin 8192) : val_main_v9 (F := Ideal) P (ix1 i) = y1 (box P i) := by
  unfold val_main_v9 val_main_v6 val_main_v5 val_main_v8 val_main_v7
  exact congrArg₂ min (sliceCol_apply 1 P _ _ i) (sliceCol_apply 3 P _ _ i)

theorem p_right (P : Arr) (i : Fin 8192) : val_main_v22 (F := Ideal) P (ix1 i) = x2 (box P i) := by
  have e : val_main_v21 (F := Ideal) P (ix1 i) = x1 (box P i) + one := by
    rw [val_main_v21_apply, p_left, val_main_v20_apply, val_main_cst_apply]; rfl
  rw [val_main_v22_apply, e]
  unfold val_main_v14 val_main_v11 val_main_v10 val_main_v13 val_main_v12
  exact congrArg₂ max (congrArg₂ max (sliceCol_apply 0 P _ _ i) (sliceCol_apply 2 P _ _ i)) rfl

theorem p_upper (P : Arr) (i : Fin 8192) : val_main_v25 (F := Ideal) P (ix1 i) = y2 (box P i) := by
  have e : val_main_v24 (F := Ideal) P (ix1 i) = y1 (box P i) + one := by
    rw [val_main_v24_apply, p_lower, val_main_v23_apply, val_main_cst_0_apply]; rfl
  rw [val_main_v25_apply, e]
  unfold val_main_v19 val_main_v16 val_main_v15 val_main_v18 val_main_v17
  exact congrArg₂ max (congrArg₂ max (sliceCol_apply 1 P _ _ i) (sliceCol_apply 3 P _ _ i)) rfl

/-- Row `i` of the reference's ordered predicted boxes is the ordered box of row `i`. -/
theorem p_ordered (P : Arr) (i : Fin 8192) (k : Fin 4) : val_main_v30 (F := Ideal) P (ix2 i k) = ordered (box P i) k := by
  unfold val_main_v30
  refine (concat4_apply ![val_main_v26 (F := Ideal) P, val_main_v27 (F := Ideal) P, val_main_v28 (F := Ideal) P, val_main_v29 (F := Ideal) P] _ i k).trans ?_
  match k with
  | ⟨0, _⟩ =>
    show val_main_v26 (F := Ideal) P (ix2 i (0 : Fin 1)) = x1 (box P i)
    rw [val_main_v26_apply, rowOfCol i idx_main_v26 (fun _ => rfl), p_left]
  | ⟨1, _⟩ =>
    show val_main_v27 (F := Ideal) P (ix2 i (0 : Fin 1)) = y1 (box P i)
    rw [val_main_v27_apply, rowOfCol i idx_main_v27 (fun _ => rfl), p_lower]
  | ⟨2, _⟩ =>
    show val_main_v28 (F := Ideal) P (ix2 i (0 : Fin 1)) = x2 (box P i)
    rw [val_main_v28_apply, rowOfCol i idx_main_v28 (fun _ => rfl), p_right]
  | ⟨3, _⟩ =>
    show val_main_v29 (F := Ideal) P (ix2 i (0 : Fin 1)) = y2 (box P i)
    rw [val_main_v29_apply, rowOfCol i idx_main_v29 (fun _ => rfl), p_upper]

/-- The area of predicted box `i`. -/
theorem p_area (P : Arr) (i : Fin 8192) : val_main_v72 (F := Ideal) P (ix1 i) = area (box P i) := by
  have c : ∀ k : Fin 4, ∀ (hs : S8192x4.Slices ![0, k.val] S8192x1) (hc : S8192x1.ShapeCasts S8192),
      shapeCast S8192 (extractStridedSlice S8192x1 ![0, k.val] (val_main_v30 (F := Ideal) P) hs) hc (ix1 i) = ordered (box P i) k :=
    fun k hs hc => (sliceCol_apply k (val_main_v30 (F := Ideal) P) hs hc i).trans (p_ordered P i k)
  unfold val_main_v72 val_main_v66 val_main_v63 val_main_v62 val_main_v65 val_main_v64 val_main_v71 val_main_v68 val_main_v67 val_main_v70 val_main_v69
  exact congrArg₂ (· * ·) (congrArg₂ (· - ·) (c 2 _ _) (c 0 _ _)) (congrArg₂ (· - ·) (c 3 _ _) (c 1 _ _))

/-! ## The true boxes (the second argument) -/

theorem t_left (T : Arr) (j : Fin 8192) : val_main_v35 (F := Ideal) T (ix1 j) = x1 (box T j) := by
  unfold val_main_v35 val_main_v32 val_main_v31 val_main_v34 val_main_v33
  exact congrArg₂ min (sliceCol_apply 0 T _ _ j) (sliceCol_apply 2 T _ _ j)

theorem t_lower (T : Arr) (j : Fin 8192) : val_main_v40 (F := Ideal) T (ix1 j) = y1 (box T j) := by
  unfold val_main_v40 val_main_v37 val_main_v36 val_main_v39 val_main_v38
  exact congrArg₂ min (sliceCol_apply 1 T _ _ j) (sliceCol_apply 3 T _ _ j)

theorem t_right (T : Arr) (j : Fin 8192) : val_main_v53 (F := Ideal) T (ix1 j) = x2 (box T j) := by
  have e : val_main_v52 (F := Ideal) T (ix1 j) = x1 (box T j) + one := by
    rw [val_main_v52_apply, t_left, val_main_v51_apply, val_main_cst_1_apply]; rfl
  rw [val_main_v53_apply, e]
  unfold val_main_v45 val_main_v42 val_main_v41 val_main_v44 val_main_v43
  exact congrArg₂ max (congrArg₂ max (sliceCol_apply 0 T _ _ j) (sliceCol_apply 2 T _ _ j)) rfl

theorem t_upper (T : Arr) (j : Fin 8192) : val_main_v56 (F := Ideal) T (ix1 j) = y2 (box T j) := by
  have e : val_main_v55 (F := Ideal) T (ix1 j) = y1 (box T j) + one := by
    rw [val_main_v55_apply, t_lower, val_main_v54_apply, val_main_cst_2_apply]; rfl
  rw [val_main_v56_apply, e]
  unfold val_main_v50 val_main_v47 val_main_v46 val_main_v49 val_main_v48
  exact congrArg₂ max (congrArg₂ max (sliceCol_apply 1 T _ _ j) (sliceCol_apply 3 T _ _ j)) rfl

/-- Row `j` of the reference's ordered true boxes is the ordered box of row `j`. -/
theorem t_ordered (T : Arr) (j : Fin 8192) (k : Fin 4) : val_main_v61 (F := Ideal) T (ix2 j k) = ordered (box T j) k := by
  unfold val_main_v61
  refine (concat4_apply ![val_main_v57 (F := Ideal) T, val_main_v58 (F := Ideal) T, val_main_v59 (F := Ideal) T, val_main_v60 (F := Ideal) T] _ j k).trans ?_
  match k with
  | ⟨0, _⟩ =>
    show val_main_v57 (F := Ideal) T (ix2 j (0 : Fin 1)) = x1 (box T j)
    rw [val_main_v57_apply, rowOfCol j idx_main_v57 (fun _ => rfl), t_left]
  | ⟨1, _⟩ =>
    show val_main_v58 (F := Ideal) T (ix2 j (0 : Fin 1)) = y1 (box T j)
    rw [val_main_v58_apply, rowOfCol j idx_main_v58 (fun _ => rfl), t_lower]
  | ⟨2, _⟩ =>
    show val_main_v59 (F := Ideal) T (ix2 j (0 : Fin 1)) = x2 (box T j)
    rw [val_main_v59_apply, rowOfCol j idx_main_v59 (fun _ => rfl), t_right]
  | ⟨3, _⟩ =>
    show val_main_v60 (F := Ideal) T (ix2 j (0 : Fin 1)) = y2 (box T j)
    rw [val_main_v60_apply, rowOfCol j idx_main_v60 (fun _ => rfl), t_upper]

/-- The area of true box `j`. -/
theorem t_area (T : Arr) (j : Fin 8192) : val_main_v83 (F := Ideal) T (ix1 j) = area (box T j) := by
  have c : ∀ k : Fin 4, ∀ (hs : S8192x4.Slices ![0, k.val] S8192x1) (hc : S8192x1.ShapeCasts S8192),
      shapeCast S8192 (extractStridedSlice S8192x1 ![0, k.val] (val_main_v61 (F := Ideal) T) hs) hc (ix1 j) = ordered (box T j) k :=
    fun k hs hc => (sliceCol_apply k (val_main_v61 (F := Ideal) T) hs hc j).trans (t_ordered T j k)
  unfold val_main_v83 val_main_v77 val_main_v74 val_main_v73 val_main_v76 val_main_v75 val_main_v82 val_main_v79 val_main_v78 val_main_v81 val_main_v80
  exact congrArg₂ (· * ·) (congrArg₂ (· - ·) (c 2 _ _) (c 0 _ _)) (congrArg₂ (· - ·) (c 3 _ _) (c 1 _ _))

end Cert.ReferenceIdeal.Boxes

end
-- ==== Proof.RefPairs.lean ====
/-
  The reference's second half, read at an index: the matrix of overlap ratios. The ordered boxes are spread over an
  `[8192, 8192, 2]` array whose entry (i, j, d) pairs predicted box i with true box j along axis d (d = 0 for x, d = 1
  for y): the far edges' minimum minus the near edges' maximum, clipped at zero, is the overlap's extent along d. The
  product of the two extents is the intersection, the two areas spread over the matrix give the union, and their
  quotient at (i, j) is the overlap ratio of predicted box i with true box j.
-/
import proofs.«122908_j63170378990199_1_alg».proof.Proof.RefBoxes

noncomputable section

namespace Cert.ReferenceIdeal.Pairs

open Cert.ReferenceIdeal Cert.ReferenceIdeal.ReadP Idealize.ShloMosaic Idealize.ShloMosaic.ValueIdx Cert.Iou
open Cert.ReferenceIdeal.Boxes

/-- Edge `lo + d` of an ordered box, for the axis `d`: the near edge with `lo = 0`, the far edge with `lo = 2`. -/
abbrev edge (lo : ℕ) (hlo : lo ≤ 2) (d : Fin 2) : Fin 4 := ⟨lo + d.val, by have := d.isLt; omega⟩

/-- The predicted boxes' far edges, spread over the pairs. -/
theorem p_far (P : Arr) (i j : Fin 8192) (d : Fin 2) :
    val_main_v95 (F := Ideal) P (ix3 i j d) = ordered (box P i) (edge 2 (le_refl _) d) := by
  rw [val_main_v95_apply, val_main_v92_apply, val_main_v91_apply]
  refine (congrArg (val_main_v30 (F := Ideal) P) ?_).trans (p_ordered P i _)
  funext a; apply Fin.ext
  match a with
  | ⟨0, _⟩ => rfl
  | ⟨1, _⟩ => rfl

/-- The true boxes' far edges, spread over the pairs. -/
theorem t_far (T : Arr) (i j : Fin 8192) (d : Fin 2) :
    val_main_v96 (F := Ideal) T (ix3 i j d) = ordered (box T j) (edge 2 (le_refl _) d) := by
  rw [val_main_v96_apply, val_main_v94_apply, val_main_v93_apply]
  refine (congrArg (val_main_v61 (F := Ideal) T) ?_).trans (t_ordered T j _)
  funext a; apply Fin.ext
  match a with
  | ⟨0, _⟩ => rfl
  | ⟨1, _⟩ => rfl

/-- The predicted boxes' near edges, spread over the pairs. -/
theorem p_near (P : Arr) (i j : Fin 8192) (d : Fin 2) :
    val_main_v88 (F := Ideal) P (ix3 i j d) = ordered (box P i) (edge 0 (Nat.zero_le _) d) := by
  rw [val_main_v88_apply, val_main_v85_apply, val_main_v84_apply]
  refine (congrArg (val_main_v30 (F := Ideal) P) ?_).trans (p_ordered P i _)
  funext a; apply Fin.ext
  match a with
  | ⟨0, _⟩ => rfl
  | ⟨1, _⟩ => show d.val = 0 + d.val; omega

/-- The true boxes' near edges, spread over the pairs. -/
theorem t_near (T : Arr) (i j : Fin 8192) (d : Fin 2) :
    val_main_v89 (F := Ideal) T (ix3 i j d) = ordered (box T j) (edge 0 (Nat.zero_le _) d) := by
  rw [val_main_v89_apply, val_main_v87_apply, val_main_v86_apply]
  refine (congrArg (val_main_v61 (F := Ideal) T) ?_).trans (t_ordered T j _)
  funext a; apply Fin.ext
  match a with
  | ⟨0, _⟩ => rfl
  | ⟨1, _⟩ => show d.val = 0 + d.val; omega

/-- The overlap's extent along axis `d`, clipped at zero. -/
theorem extent (P T : Arr) (i j : Fin 8192) (d : Fin 2) :
    val_main_v99 (F := Ideal) P T (ix3 i j d)
      = max zero (min (ordered (box P i) (edge 2 (le_refl _) d)) (ordered (box T j) (edge 2 (le_refl _) d))
          - max (ordered (box P i) (edge 0 (Nat.zero_le _) d)) (ordered (box T j) (edge 0 (Nat.zero_le _) d))) := by
  rw [val_main_v99_apply, val_main_v98_apply, val_main_v97_apply, val_main_v90_apply, p_far, t_far, p_near, t_near,
    val_main_call0_v1_apply, val_main_call0_v0_apply, val_main_cst_3_apply]
  rfl

/-- The intersection of predicted box `i` and true box `j`. -/
theorem inter_at (P T : Arr) (i j : Fin 8192) : val_main_v104 (F := Ideal) P T (ix2 i j) = inter (box P i) (box T j) := by
  have hj := j.isLt
  have e0 : idx_main_v100 (idx_main_v101 (ix2 i j)) = ix3 i j (0 : Fin 2) := by
    funext a; apply Fin.ext
    match a with
    | ⟨0, _⟩ => show (i.val * 8192 + j.val) / 8192 = i.val; omega
    | ⟨1, _⟩ => show (i.val * 8192 + j.val) / 1 % 8192 = j.val; omega
    | ⟨2, _⟩ => rfl
  have e1 : idx_main_v102 (idx_main_v103 (ix2 i j)) = ix3 i j (1 : Fin 2) := by
    funext a; apply Fin.ext
    match a with
    | ⟨0, _⟩ => show (i.val * 8192 + j.val) / 8192 = i.val; omega
    | ⟨1, _⟩ => show (i.val * 8192 + j.val) / 1 % 8192 = j.val; omega
    | ⟨2, _⟩ => rfl
  rw [val_main_v104_apply, val_main_v101_apply, val_main_v100_apply, val_main_v103_apply, val_main_v102_apply, e0, e1,
    extent, extent]
  rfl

/-- The two areas, spread over the pairs and added. -/
theorem areas_at (P T : Arr) (i j : Fin 8192) :
    val_main_v109 (F := Ideal) P T (ix2 i j) = area (box P i) + area (box T j) := by
  have eP : idx_main_v105 (idx_main_v107 (ix2 i j)) = ix1 i := by
    funext a; apply Fin.ext
    match a with
    | ⟨0, _⟩ => rfl
  have eT : idx_main_v106 (idx_main_v108 (ix2 i j)) = ix1 j := by
    funext a; apply Fin.ext
    match a with
    | ⟨0, _⟩ => rfl
  rw [val_main_v109_apply, val_main_v107_apply, val_main_v105_apply, val_main_v108_apply, val_main_v106_apply, eP, eT,
    p_area, t_area]
  rfl

/-- Entry (i, j) of the reference's matrix is the overlap ratio of predicted box `i` with true box `j`. -/
theorem ratio_at (P T : Arr) (i j : Fin 8192) : val_main_v111 (F := Ideal) P T (ix2 i j) = ratio (box P i) (box T j) := by
  rw [val_main_v111_apply, val_main_v110_apply, areas_at, inter_at]
  rfl

end Cert.ReferenceIdeal.Pairs

end
-- ==== Proof.RefLoss.lean ====
/-
  The reference's result: one minus, for each true box, the largest overlap ratio over the predicted boxes. The host
  takes the maximum down the columns of the ratio matrix from −∞; folded from the bottom element that is the supremum
  over the predicted boxes, which is how the specification states the loss.
-/
import proofs.«122908_j63170378990199_1_alg».proof.Proof.RefPairs

noncomputable section

namespace Cert.ReferenceIdeal.Loss

open Cert.ReferenceIdeal Cert.ReferenceIdeal.ReadP Idealize.ShloMosaic Idealize.ShloMosaic.ValueIdx Cert.Iou
open Cert.ReferenceIdeal.Boxes Cert.ReferenceIdeal.Pairs
open Cert.ReferenceIdeal.Facts₀ Cert.ReferenceIdeal.Facts

/-- The reference's last stage is the loss of its two arguments. -/
theorem result_eq (P T : Arr) : val_main_v114 (F := Ideal) P T = loss P T := by
  funext jj
  obtain ⟨j, rfl⟩ : ∃ j : Fin 8192, jj = ix1 j := ⟨jj 0, eq_ix1 jj⟩
  have hmax : val_main_v112 (F := Ideal) P T (ix1 j)
      = (Finset.univ : Finset (Fin 8192)).sup fun i => ratio (box P i) (box T j) := by
    unfold val_main_v112
    refine (Cert.LibCols.hostColMax_apply (val_main_v111 (F := Ideal) P T) (val_main_cst_4 (F := Ideal))
      reducesTo_S8192x8192_S8192_d0 (by decide) h_S_ j).trans ?_
    refine (Cert.LibCols.fold_max_ninf _ _).trans ?_
    exact congrArg (Finset.sup Finset.univ) (funext fun i => ratio_at P T i j)
  rw [val_main_v114_apply, hmax, val_main_v113_apply, val_main_cst_5_apply]
  rfl

end Cert.ReferenceIdeal.Loss

end
-- ==== Proof.KernelCases.lean ====
/-
  What each kind of grid point leaves behind, as values. A run over the predicted boxes has three kinds of point. The
  first resets the scratch row to −∞ and then joins its block's column maxima into it; a middle point joins its block's
  column maxima into what the point before left; the last does the same and then stores one minus the scratch row into
  the output block. In each case the scratch row ends as one function, `step`, of the point's two blocks and of the
  row it started from (the row of −∞ at a first point), and the last point's output block is `finish` of that.
  Each buffer is written through one rectangle that covers it, so what it holds is the last store's value; a load that
  follows a covering store reads that store's value.
-/
import proofs.«122908_j63170378990199_1_alg».proof.Proof.Gen.KernelIdeal.Frame
import Idealize.ShloMosaic.Lib.Tactic
import Idealize.ShloMosaic.Lib.Pipeline.Value

set_option maxRecDepth 16384

noncomputable section

namespace Cert.KernelIdeal.Cases

open Cert.KernelIdeal Cert.KernelIdeal.Gen Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The scratch row after a point, from its block of predicted boxes `x0`, its block of true boxes `x1` and the row
    `acc` it started from. -/
def step (x0 x1 : Vec F S512x4 .f32) (acc : Vec F S1x512 .f32) : Vec F S1x512 .f32 :=
  k0_pay1 (k0_pay13 (k0_pay4 x0) (k0_pay5 x0) (k0_pay6 x0) (k0_pay7 x0) (k0_pay8 x1) (k0_pay9 x1) (k0_pay10 x1)
    (k0_pay11 x1) (k0_pay12 x1) acc)

/-- The output block a last point stores, from the scratch row it has just written. -/
def finish (row : Vec F S1x512 .f32) : Vec F S512 .f32 := k0_pay2 row

/-- A first point: the scratch row is reset, then ends at `step` of the reset row. -/
theorem scratch_A (c : Dev nD) (i : grid0.Coords) (a2 : Memref sig .tc .vmem S512x4 .f32) (h2 : a2.IsWhole)
    (a3 : Memref sig .tc .vmem S512x4 .f32) (h3 : a3.IsWhole) (a4 : Memref sig .tc .vmem S512 .f32) (h4 : a4.IsWhole)
    (a5 : Memref sig .tc .vmem S1x512 .f32) (h5 : a5.IsWhole) (hc0 : cond0_0 i) (hc1 : ¬cond0_1 i)
    (x0 x1 : Vec F S512x4 .f32) :
    sout0_A_0 c i a2 h2 a3 h3 a4 h4 a5 h5 hc0 hc1 x0 x1 = step x0 x1 k0_pay3 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x512) hz2, View.readCov_unit_zero (S := S1x512) _ hz2]
  simp only [View.readAt_eq_ld, h2.read_unread, h3.read_unread, View.ld_unit_zero (S := S512x4) hz2]
  rfl

/-- A middle point: the scratch row ends at `step` of what the point before left. -/
theorem scratch_B (c : Dev nD) (i : grid0.Coords) (a2 : Memref sig .tc .vmem S512x4 .f32) (h2 : a2.IsWhole)
    (a3 : Memref sig .tc .vmem S512x4 .f32) (h3 : a3.IsWhole) (a4 : Memref sig .tc .vmem S512 .f32) (h4 : a4.IsWhole)
    (a5 : Memref sig .tc .vmem S1x512 .f32) (h5 : a5.IsWhole) (hc0 : ¬cond0_0 i) (hc1 : ¬cond0_1 i)
    (x0 x1 : Vec F S512x4 .f32) (xs0 : Vec F S1x512 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S512x4) hz2,
    View.ld_unit_zero (S := S1x512) hz2]
  rfl

/-- A last point: the scratch row again ends at `step` of what the point before left, -/
theorem scratch_C (c : Dev nD) (i : grid0.Coords) (a2 : Memref sig .tc .vmem S512x4 .f32) (h2 : a2.IsWhole)
    (a3 : Memref sig .tc .vmem S512x4 .f32) (h3 : a3.IsWhole) (a4 : Memref sig .tc .vmem S512 .f32) (h4 : a4.IsWhole)
    (a5 : Memref sig .tc .vmem S1x512 .f32) (h5 : a5.IsWhole) (hc0 : ¬cond0_0 i) (hc1 : cond0_1 i)
    (x0 x1 : Vec F S512x4 .f32) (xs0 : Vec F S1x512 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S512x4) hz2,
    View.ld_unit_zero (S := S1x512) hz2]
  rfl

/-- and the output block is `finish` of that row, read back from the scratch. -/
theorem out_C (c : Dev nD) (i : grid0.Coords) (a2 : Memref sig .tc .vmem S512x4 .f32) (h2 : a2.IsWhole)
    (a3 : Memref sig .tc .vmem S512x4 .f32) (h3 : a3.IsWhole) (a4 : Memref sig .tc .vmem S512 .f32) (h4 : a4.IsWhole)
    (a5 : Memref sig .tc .vmem S1x512 .f32) (h5 : a5.IsWhole) (hc0 : ¬cond0_0 i) (hc1 : cond0_1 i)
    (x0 x1 : Vec F S512x4 .f32) (xs0 : Vec F S1x512 .f32) :
    out0_C_2 c i a2 h2 a3 h3 a4 h4 a5 h5 hc0 hc1 x0 x1 xs0 = finish (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz1, View.readCov_unit_zero (S := S1x512) _ hz2]
  simp only [View.readAt_eq_ld, h2.read_unread, h3.read_unread, h5.read_unread, View.ld_unit_zero (S := S512x4) hz2,
    View.ld_unit_zero (S := S1x512) hz2]
  rfl

end Cert.KernelIdeal.Cases

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.KernelBlock.lean ====
/-
  One grid point's arithmetic, read at an index. The body loads a block `p` of 512 predicted boxes and a block `t` of
  512 true boxes, orders each box's corners, and forms the 512 × 512 matrix of overlap ratios: entry (r, q) is the ratio
  of predicted box r with true box q. It takes the maximum down each column and joins it, by `max`, into the running
  maximum `acc` that the scratch row carries: at column q the new scratch is max (acc q) (sup_r ratio (p r) (t q)).
  At the first point of a run the scratch is first set to −∞ (the bottom element), and at the last the output block is
  1 − scratch.
-/
import proofs.«122908_j63170378990199_1_alg».proof.Proof.Gen.KernelIdeal.Skeleton
import proofs.«122908_j63170378990199_1_alg».proof.Proof.IouSpec
import proofs.«122908_j63170378990199_1_alg».proof.Proof.LibRows
import proofs.«122908_j63170378990199_1_alg».proof.Proof.LibCols

noncomputable section

namespace Cert.KernelIdeal.Block

open Cert.KernelIdeal Cert.KernelIdeal.Gen Idealize.ShloMosaic Idealize.ShloMosaic.ValueIdx Cert.Iou

/-- Column `k` of a block of boxes, as the body takes it (a unit-width slice, then the unit axis dropped). -/
theorem column (k : Fin 4) (x : Vec Ideal S512x4 .f32) (hs : S512x4.Slices ![0, k.val] S512x1) (r : Fin 512) :
    shapeCast S512 (extractStridedSlice S512x1 ![0, k.val] x hs) shapeCasts_S512x1_S512 (ix1 r) = x (ix2 r k) :=
  Cert.LibCols.sliceCol_apply k x hs shapeCasts_S512x1_S512 r

/-- A vector over the predicted boxes spread along the rows of the 512 × 512 matrix reads, at (r, q), its entry r. -/
theorem overRows (v : FVec Ideal S512 .f32) (r q : Fin 512) :
    broadcastTo S512x512 (shapeCast S512x1 v shapeCasts_S512_S512x1) broadcasts_S512x1_S512x512 (ix2 r q) = v (ix1 r) :=
  Cert.LibRows.column_spread_apply v shapeCasts_S512_S512x1 broadcasts_S512x1_S512x512 r q

/-- A vector over the true boxes spread along the columns of the 512 × 512 matrix reads, at (r, q), its entry q. -/
theorem overCols (v : FVec Ideal S512 .f32) (r q : Fin 512) :
    broadcastTo S512x512 (shapeCast S1x512 v shapeCasts_S512_S1x512) broadcasts_S1x512_S512x512 (ix2 r q) = v (ix1 q) :=
  Cert.LibCols.row_spread_apply v shapeCasts_S512_S1x512 broadcasts_S1x512_S512x512 r q

/-! ## The ordered corners of the two blocks -/

/-- The left edges of the predicted boxes. -/
theorem left_p (x : Vec Ideal S512x4 .f32) (r : Fin 512) : k0_pay4 x (ix1 r) = x1 (box x r) := by
  unfold k0_pay4
  exact congrArg₂ min (column 0 x _ r) (column 2 x _ r)

/-- The lower edges of the predicted boxes. -/
theorem lower_p (x : Vec Ideal S512x4 .f32) (r : Fin 512) : k0_pay5 x (ix1 r) = y1 (box x r) := by
  unfold k0_pay5
  exact congrArg₂ min (column 1 x _ r) (column 3 x _ r)

/-- The right edges of the predicted boxes. -/
theorem right_p (x : Vec Ideal S512x4 .f32) (r : Fin 512) : k0_pay6 x (ix1 r) = x2 (box x r) := by
  unfold k0_pay6
  exact congrArg₂ max (congrArg₂ max (column 0 x _ r) (column 2 x _ r)) (congrArg (· + one) (left_p x r))

/-- The upper edges of the predicted boxes. -/
theorem upper_p (x : Vec Ideal S512x4 .f32) (r : Fin 512) : k0_pay7 x (ix1 r) = y2 (box x r) := by
  unfold k0_pay7
  exact congrArg₂ max (congrArg₂ max (column 1 x _ r) (column 3 x _ r)) (congrArg (· + one) (lower_p x r))

/-- The left edges of the true boxes. -/
theorem left_t (x : Vec Ideal S512x4 .f32) (q : Fin 512) : k0_pay8 x (ix1 q) = x1 (box x q) := by
  unfold k0_pay8
  exact congrArg₂ min (column 0 x _ q) (column 2 x _ q)

/-- The lower edges of the true boxes. -/
theorem lower_t (x : Vec Ideal S512x4 .f32) (q : Fin 512) : k0_pay9 x (ix1 q) = y1 (box x q) := by
  unfold k0_pay9
  exact congrArg₂ min (column 1 x _ q) (column 3 x _ q)

/-- The larger x coordinate of each true box (its right edge before the margin of one is applied). -/
theorem wide_t (x : Vec Ideal S512x4 .f32) (q : Fin 512) : k0_pay10 x (ix1 q) = max (box x q 0) (box x q 2) := by
  unfold k0_pay10
  exact congrArg₂ max (column 0 x _ q) (column 2 x _ q)

/-- The second coordinate of each true box. -/
theorem second_t (x : Vec Ideal S512x4 .f32) (q : Fin 512) : k0_pay11 x (ix1 q) = box x q 1 := by
  unfold k0_pay11
  exact column 1 x _ q

/-- The fourth coordinate of each true box (carried as a column, its unit axis dropped where it is used). -/
theorem fourth_t (x : Vec Ideal S512x4 .f32) (q : Fin 512) :
    shapeCast S512 (k0_pay12 x) shapeCasts_S512x1_S512 (ix1 q) = box x q 3 := by
  unfold k0_pay12
  exact column 3 x _ q

/-! ## The running maximum -/

/-- What one point leaves in the scratch row, as a function of its two blocks and of what the row held: at column `q`,
    the old value joined with the largest overlap ratio of true box `q` with the block's predicted boxes. -/
theorem joined (x0 x1 : Vec Ideal S512x4 .f32) (acc : Vec Ideal S1x512 .f32) (q : Fin 512) :
    k0_pay13 (k0_pay4 x0) (k0_pay5 x0) (k0_pay6 x0) (k0_pay7 x0) (k0_pay8 x1) (k0_pay9 x1) (k0_pay10 x1) (k0_pay11 x1)
        (k0_pay12 x1) acc (ix2 (0 : Fin 1) q)
      = max (acc (ix2 (0 : Fin 1) q)) ((Finset.univ : Finset (Fin 512)).sup fun r => ratio (box x0 r) (box x1 q)) := by
  unfold k0_pay13
  dsimp only
  refine congrArg (max (acc (ix2 (0 : Fin 1) q))) ?_
  refine (shapeCast_a_1a_apply _ shapeCasts_S512_S1x512 (0 : Fin 1) q).trans ?_
  refine (Cert.LibCols.colMax_apply _ 0xFF800000#32 reduces_S512x512_S512 (.inl rfl) rfl q).trans ?_
  refine (Cert.LibCols.fold_max_ninf _ _).trans ?_
  refine congrArg (Finset.sup Finset.univ) (funext fun r => ?_)
  simp only [divf_apply, subf_apply, addf_apply, mulf_apply, maximumf_apply, minimumf_apply, broadcast_apply, overRows,
    overCols, left_p, lower_p, right_p, upper_p, left_t, lower_t, wide_t, second_t, fourth_t]
  rfl

/-- The reset: the row of −∞ the first point of a run stores is the bottom element everywhere. -/
theorem reset (q : Fin 512) : (k0_pay3 (F := Ideal)) (ix2 (0 : Fin 1) q) = (⊥ : EReal) := by
  unfold k0_pay3
  rw [shapeCast_self]
  exact Cert.LibCols.ninf_eq_bot

/-- The store back into the scratch row changes nothing (a cast between equal shapes). -/
theorem kept (v : FVec Ideal S1x512 .f32) : k0_pay1 v = v := by
  unfold k0_pay1
  exact shapeCast_self v _

/-- The output block: one minus the scratch row. -/
theorem complement (v : Vec Ideal S1x512 .f32) (q : Fin 512) : k0_pay2 v (ix1 q) = one - v (ix2 (0 : Fin 1) q) := by
  unfold k0_pay2
  exact congrArg (fun z => one - z) (shapeCast_1a_a_apply v shapeCasts_S1x512_S512 q)

end Cert.KernelIdeal.Block

end
-- ==== Proof.LibMaxFold.lean ====
/-
  The order law that joins the two programs. One side takes the maximum of a family over all of its indices at
  once, from the bottom element; the other walks the indices block by block, taking each block's maximum and
  folding it into a running maximum that starts at the bottom element. Both are the supremum of the family: the
  supremum over the indices below `B·(n+1)` is the supremum over those below `B·n` joined with the supremum over
  block `n`. Only the semilattice laws and `⊥ ⊔ x = x` are used, so nothing here asks an entry to be finite.
-/
import Mathlib.Data.Finset.Lattice.Fold
import Mathlib.Data.Fintype.Basic
import Mathlib.Data.EReal.Basic

namespace Cert.MaxFold

variable {α : Type*} [SemilatticeSup α] [OrderBot α]

/-- The indices below `b`. -/
abbrev below (N b : ℕ) : Finset (Fin N) := Finset.univ.filter fun i : Fin N => i.val < b

/-- No index lies below `B·0`: the supremum over them is the bottom element. -/
theorem sup_below_zero {N : ℕ} (B : ℕ) (f : Fin N → α) : (below N (B * 0)).sup f = ⊥ := by
  have : below N (B * 0) = ∅ := by
    apply Finset.filter_eq_empty_iff.2
    intro i _ h
    simp at h
  rw [this, Finset.sup_empty]

/-- Every index lies below a bound that is at least `N`: the supremum over them is the supremum over all. -/
theorem sup_below_all {N b : ℕ} (h : N ≤ b) (f : Fin N → α) : (below N b).sup f = Finset.univ.sup f := by
  have : below N b = Finset.univ := by
    apply Finset.filter_eq_self.2
    intro i _
    exact lt_of_lt_of_le i.isLt h
  rw [this]

/-- Block `n` of a family cut into blocks of `B`: entry `r` is the family at `B·n + r`. -/
def block {N : ℕ} (B n : ℕ) (hn : B * (n + 1) ≤ N) (f : Fin N → α) (r : Fin B) : α :=
  f ⟨B * n + r.val, by have := r.isLt; rw [Nat.mul_succ] at hn; omega⟩

/-- One more block: the supremum over the indices below `B·(n+1)` is the supremum over those below `B·n`, joined
    with the supremum over block `n` (the indices `B·n + r`, `r < B`). -/
theorem sup_below_succ {N : ℕ} (B n : ℕ) (hn : B * (n + 1) ≤ N) (f : Fin N → α) :
    (below N (B * (n + 1))).sup f
      = (below N (B * n)).sup f ⊔ (Finset.univ : Finset (Fin B)).sup (block B n hn f) := by
  apply le_antisymm
  · apply Finset.sup_le
    intro i hi
    have hi' : i.val < B * (n + 1) := (Finset.mem_filter.1 hi).2
    by_cases hlt : i.val < B * n
    · exact le_trans (Finset.le_sup (f := f) (Finset.mem_filter.2 ⟨Finset.mem_univ _, hlt⟩)) le_sup_left
    · have hr : i.val - B * n < B := by rw [Nat.mul_succ] at hi'; omega
      have key : f i = block B n hn f ⟨i.val - B * n, hr⟩ :=
        congrArg f (Fin.ext (by show i.val = B * n + (i.val - B * n); omega))
      rw [key]
      exact le_trans (Finset.le_sup (f := block B n hn f) (Finset.mem_univ _)) le_sup_right
  · apply sup_le
    · apply Finset.sup_mono
      intro i hi
      have hi' : i.val < B * n := (Finset.mem_filter.1 hi).2
      exact Finset.mem_filter.2 ⟨Finset.mem_univ _, by rw [Nat.mul_succ]; omega⟩
    · apply Finset.sup_le
      intro r _
      exact Finset.le_sup (f := f) (Finset.mem_filter.2 ⟨Finset.mem_univ _, by
        have := r.isLt; show B * n + r.val < B * (n + 1); rw [Nat.mul_succ]; omega⟩)

/-- Over a linear order with a bottom element, folding `max` from the bottom element is the supremum. -/
theorem fold_max_bot {β : Type*} [LinearOrder β] [OrderBot β] {ι : Type*} (s : Finset ι) (f : ι → β) :
    s.fold max ⊥ f = s.sup f := rfl

end Cert.MaxFold
-- ==== Proof.KernelScratch.lean ====
/-
  The scratch row after every grid point. The grid is walked with the true-box block `t / 16` fixed while the
  predicted-box block `t % 16` runs from 0 to 15. By induction on the point, after point `t` the scratch row holds, at
  column `q`, the supremum of the overlap ratios of true box `512·(t / 16) + q` with the predicted boxes below
  `512·(t % 16 + 1)`: a first point starts from −∞, the supremum over no box, and every point joins in its own block
  of 512 predicted boxes.
-/
import proofs.«122908_j63170378990199_1_alg».proof.Proof.Gen.KernelIdeal.Value
import proofs.«122908_j63170378990199_1_alg».proof.Proof.KernelCases
import proofs.«122908_j63170378990199_1_alg».proof.Proof.KernelBlock
import proofs.«122908_j63170378990199_1_alg».proof.Proof.LibMaxFold

noncomputable section

namespace Cert.KernelIdeal.Scratch

open Cert.KernelIdeal Cert.KernelIdeal.Gen Idealize.ShloMosaic Idealize.ShloMosaic.TcCoe Idealize.ShloMosaic.ValueIdx
open Idealize.SL.Sem Cert.Iou Cert.KernelIdeal.Cases Cert.KernelIdeal.Block Cert.MaxFold

/-- An array of 8192 boxes. -/
abbrev Arr : Type := S8192x4.Idx → Ideal .f32

/-- The overlap ratios of true box `j` with every predicted box. -/
def ratios (Pa Ta : Arr) (j : Fin 8192) : Fin 8192 → Ideal .f32 := fun i => ratio (box Pa i) (box Ta j)

/-- ONE MORE BLOCK. If the row holds, at column `q`, the supremum of true box `j`'s ratios with the predicted boxes
    below `512·n`, and the point's blocks are predicted boxes `512·n …` and (at `q`) true box `j`, then after the
    point it holds the supremum over the predicted boxes below `512·(n + 1)`. -/
theorem one_more (Pa Ta : Arr) (x0 x1 : Vec Ideal S512x4 .f32) (acc : Vec Ideal S1x512 .f32) (n : ℕ)
    (hn : 512 * (n + 1) ≤ 8192) (j : Fin 8192) (q : Fin 512)
    (h0 : ∀ r : Fin 512, box x0 r = box Pa ⟨512 * n + r.val, by have := r.isLt; omega⟩)
    (h1 : box x1 q = box Ta j)
    (hacc : acc (ix2 (0 : Fin 1) q) = (below 8192 (512 * n)).sup (ratios Pa Ta j)) :
    step x0 x1 acc (ix2 (0 : Fin 1) q) = (below 8192 (512 * (n + 1))).sup (ratios Pa Ta j) := by
  unfold step
  rw [kept, joined x0 x1 acc q, hacc, sup_below_succ 512 n hn (ratios Pa Ta j)]
  refine congrArg (fun z => (below 8192 (512 * n)).sup (ratios Pa Ta j) ⊔ z) ?_
  refine congrArg (Finset.sup Finset.univ) (funext fun r => ?_)
  show ratio (box x0 r) (box x1 q) = ratio (box Pa _) (box Ta j)
  rw [h0 r, h1]

variable (m : (ℓ : Loc nD τ sig) → Buf (Elt Ideal) ℓ)

/-- The printed index maps, decided over the grid: the predicted-box window moves with `t % 16`, the true-box window
    and the output window with `t / 16`. -/
theorem idx_facts : ∀ t : Fin cfg0.N, win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 1) = t.val / 16 :=
  (by decide +kernel : ∀ t : Fin grid0.N, _)

/-- The predicted box that row `r` of point `t`'s first block holds. -/
def predRow (t : Fin cfg0.N) (r : Fin 512) : Fin 8192 :=
  ⟨512 * (t.val % 16) + r.val, by have := r.isLt; omega⟩

/-- The true box that row `q` of point `t`'s second block holds. -/
def trueRow (t : Fin cfg0.N) (q : Fin 512) : Fin 8192 :=
  ⟨512 * (t.val / 16) + q.val, by
    have := q.isLt; have hN : t.val < 256 := lt_of_lt_of_eq t.isLt (show cfg0.N = 256 from N_0); omega⟩

/-- Point `t`'s block of predicted boxes, read off the first argument. -/
theorem predBlock (c : Dev nD) (t : Fin cfg0.N) (r : Fin 512) :
    box (iblk m c 0 t : Vec Ideal S512x4 .f32) r = box (m ((c : Thread nD τ).loc main_arg0)) (predRow t r) := by
  obtain ⟨e0, e1, -, -, -⟩ := idx_facts t
  funext k
  show (iblk m c 0 t : Vec Ideal S512x4 .f32) (ix2 r k) = m ((c : Thread nD τ).loc main_arg0) (ix2 (predRow t r) k)
  unfold iblk
  rw [View.read_apply]
  show V m c main_arg0 _ = m ((c : Thread nD τ).loc main_arg0) _
  unfold V
  congr 1
  funext a
  apply Fin.ext
  match a with
  | ⟨0, _⟩ => show win0_0.index t 0 * 512 + 1 * r.val = 512 * (t.val % 16) + r.val; rw [e0]; omega
  | ⟨1, _⟩ => show win0_0.index t 1 * 4 + 1 * k.val = k.val; rw [e1]; omega

/-- Point `t`'s block of true boxes, read off the second argument. -/
theorem trueBlock (c : Dev nD) (t : Fin cfg0.N) (q : Fin 512) :
    box (iblk m c 1 t : Vec Ideal S512x4 .f32) q = box (m ((c : Thread nD τ).loc main_arg1)) (trueRow t q) := by
  obtain ⟨-, -, e0, e1, -⟩ := idx_facts t
  funext k
  show (iblk m c 1 t : Vec Ideal S512x4 .f32) (ix2 q k) = m ((c : Thread nD τ).loc main_arg1) (ix2 (trueRow t q) k)
  unfold iblk
  rw [View.read_apply]
  show V m c main_arg1 _ = m ((c : Thread nD τ).loc main_arg1) _
  unfold V
  congr 1
  funext a
  apply Fin.ext
  match a with
  | ⟨0, _⟩ => show win0_1.index t 0 * 512 + 1 * q.val = 512 * (t.val / 16) + q.val; rw [e0]; omega
  | ⟨1, _⟩ => show win0_1.index t 1 * 4 + 1 * k.val = k.val; rw [e1]; omega

/-- The two arguments as arrays of boxes. -/
abbrev argP (c : Dev nD) : Arr := m ((c : Thread nD τ).loc main_arg0)
abbrev argT (c : Dev nD) : Arr := m ((c : Thread nD τ).loc main_arg1)

set_option maxHeartbeats 2000000 in
/-- After a first point the scratch row is `step` of the reset row. -/
theorem after_first (c : Dev nD) (t : Fin cfg0.N) (h0 : t.val % 16 = 0) (h1 : ¬t.val % 16 = 15) :
    (outsAt0 m c t.val t.isLt).2 = step (iblk m c 0 t) (iblk m c 1 t) (k0_pay3 (F := Ideal)) :=
  (congrArg Prod.snd (outsAt0_A m c t h0 h1)).trans
    (scratch_A c (grid0.coords t) (ms0_0 t) (hs0_0 t) (ms0_1 t) (hs0_1 t) (ms0_2 t) (hs0_2 t) scM0_0
      (Memref.isWhole_whole _) ((hcond0_0 t).mpr h0) (fun h => h1 ((hcond0_1 t).mp h))
      (iblk m c 0 t) (iblk m c 1 t))

set_option maxHeartbeats 2000000 in
/-- After a middle point it is `step` of what the point before left. -/
theorem after_middle (c : Dev nD) (t : Fin cfg0.N) (h0 : ¬t.val % 16 = 0) (h1 : ¬t.val % 16 = 15) :
    (outsAt0 m c t.val t.isLt).2
      = step (iblk m c 0 t) (iblk m c 1 t) (outsAt0 m c (t.val - 1) (Nat.lt_of_le_of_lt (Nat.sub_le _ _) t.isLt)).2 :=
  (congrArg Prod.snd (outsAt0_B m c t h0 h1)).trans
    (scratch_B c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2)

set_option maxHeartbeats 2000000 in
/-- After a last point likewise. -/
theorem after_last (c : Dev nD) (t : Fin cfg0.N) (h0 : ¬t.val % 16 = 0) (h1 : t.val % 16 = 15) :
    (outsAt0 m c t.val t.isLt).2
      = step (iblk m c 0 t) (iblk m c 1 t) (outsAt0 m c (t.val - 1) (Nat.lt_of_le_of_lt (Nat.sub_le _ _) t.isLt)).2 :=
  (congrArg Prod.snd (outsAt0_C m c t h0 h1)).trans
    (scratch_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2)

set_option maxHeartbeats 4000000 in
/-- THE INVARIANT: what the scratch row holds after point `n`. -/
theorem scratch_eq (c : Dev nD) : ∀ (n : ℕ) (h : n < cfg0.N) (q : Fin 512),
    (outsAt0 m c n h).2 (ix2 (0 : Fin 1) q)
      = (below 8192 (512 * (n % 16 + 1))).sup (ratios (argP m c) (argT m c) (trueRow ⟨n, h⟩ q)) := by
  intro n
  induction n with
  | zero =>
    intro h q
    refine (congrFun (after_first m c ⟨0, h⟩ rfl (by show ¬(0 : ℕ) % 16 = 15; decide)) (ix2 (0 : Fin 1) q)).trans ?_
    exact one_more (argP m c) (argT m c) (iblk m c 0 ⟨0, h⟩) (iblk m c 1 ⟨0, h⟩) (k0_pay3 (F := Ideal)) 0 (by omega)
      (trueRow ⟨0, h⟩ q) q (fun r => predBlock m c ⟨0, h⟩ r) (trueBlock m c ⟨0, h⟩ q)
      (by rw [reset q, sup_below_zero])
  | succ k ih =>
    intro h q
    have hN : k + 1 < 256 := lt_of_lt_of_eq h (show cfg0.N = 256 from N_0)
    have hk : k < cfg0.N := Nat.lt_of_succ_lt h
    by_cases h0 : (k + 1) % 16 = 0
    · have h1 : ¬(k + 1) % 16 = 15 := by omega
      refine (congrFun (after_first m c ⟨k + 1, h⟩ h0 h1) (ix2 (0 : Fin 1) q)).trans ?_
      have hz : (k + 1) % 16 + 1 = 0 + 1 := by omega
      rw [hz]
      exact one_more (argP m c) (argT m c) (iblk m c 0 ⟨k + 1, h⟩) (iblk m c 1 ⟨k + 1, h⟩) (k0_pay3 (F := Ideal)) 0 (by omega)
        (trueRow ⟨k + 1, h⟩ q) q
        (fun r => (predBlock m c ⟨k + 1, h⟩ r).trans (congrArg (box (argP m c)) (Fin.ext (by
          show 512 * ((k + 1) % 16) + r.val = 512 * 0 + r.val; omega))))
        (trueBlock m c ⟨k + 1, h⟩ q)
        (by rw [reset q, sup_below_zero])
    · have hprev : (outsAt0 m c k hk).2 (ix2 (0 : Fin 1) q)
          = (below 8192 (512 * ((k + 1) % 16))).sup (ratios (argP m c) (argT m c) (trueRow ⟨k + 1, h⟩ q)) := by
        rw [ih hk q]
        have e1 : k % 16 + 1 = (k + 1) % 16 := by omega
        have e2 : trueRow ⟨k, hk⟩ q = trueRow ⟨k + 1, h⟩ q :=
          Fin.ext (by show 512 * (k / 16) + q.val = 512 * ((k + 1) / 16) + q.val; omega)
        rw [e1, e2]
      by_cases h1 : (k + 1) % 16 = 15
      · refine (congrFun (after_last m c ⟨k + 1, h⟩ h0 h1) (ix2 (0 : Fin 1) q)).trans ?_
        exact one_more (argP m c) (argT m c) (iblk m c 0 ⟨k + 1, h⟩) (iblk m c 1 ⟨k + 1, h⟩) (outsAt0 m c k hk).2
          ((k + 1) % 16) (by omega) (trueRow ⟨k + 1, h⟩ q) q (fun r => predBlock m c ⟨k + 1, h⟩ r)
          (trueBlock m c ⟨k + 1, h⟩ q) hprev
      · refine (congrFun (after_middle m c ⟨k + 1, h⟩ h0 h1) (ix2 (0 : Fin 1) q)).trans ?_
        exact one_more (argP m c) (argT m c) (iblk m c 0 ⟨k + 1, h⟩) (iblk m c 1 ⟨k + 1, h⟩) (outsAt0 m c k hk).2
          ((k + 1) % 16) (by omega) (trueRow ⟨k + 1, h⟩ q) q (fun r => predBlock m c ⟨k + 1, h⟩ r)
          (trueBlock m c ⟨k + 1, h⟩ q) hprev

end Cert.KernelIdeal.Scratch

end
-- ==== Proof.KernelLoss.lean ====
/-
  The kernel's result array. The output block of true-box block `b` is written back once, after the last point of its
  run (point `16·b + 15`), when the scratch row holds the supremum over all 8192 predicted boxes; the block stored is
  one minus that row, which is the loss at true boxes `512·b … 512·b + 511`. The sixteen blocks tile the array, so
  the array ends holding the loss of the two argument arrays.
-/
import proofs.«122908_j63170378990199_1_alg».proof.Proof.KernelScratch

noncomputable section

namespace Cert.KernelIdeal.Loss

open Cert.KernelIdeal Cert.KernelIdeal.Gen Idealize.ShloMosaic Idealize.ShloMosaic.TcCoe Idealize.ShloMosaic.ValueIdx
open Idealize.SL.Sem Cert.Iou Cert.KernelIdeal.Cases Cert.KernelIdeal.Block Cert.KernelIdeal.Scratch Cert.MaxFold
open Idealize.ShloMosaic.Pipeline (Dat)

variable (m : (ℓ : Loc nD τ sig) → Buf (Elt Ideal) ℓ) (ρ : Dev nD → PrngReg)

/-- The loss of the two argument arrays, as contents of the result array. -/
abbrev result (c : Dev nD) : Buf (Elt Ideal) ((c : Thread nD τ).loc main_v0) := loss (argP m c) (argT m c)

set_option maxHeartbeats 2000000 in
/-- At the last point of a run the output block is `finish` of the scratch row that point leaves. -/
theorem lastBlock (c : Dev nD) (t : Fin cfg0.N) (h0 : ¬t.val % 16 = 0) (h1 : t.val % 16 = 15) :
    (outsAt0 m c t.val t.isLt).1 = finish (F := Ideal) (outsAt0 m c t.val t.isLt).2 :=
  ((congrArg Prod.fst (outsAt0_C m c t h0 h1)).trans
    (out_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2)).trans
    (congrArg (finish (F := Ideal)) (after_last m c t h0 h1).symm)

/-- WHAT A FLUSHING POINT WRITES BACK is its block of the loss. -/
theorem flushed_eq (c : Dev nD) (t : Fin cfg0.N) (hf : (cfg0.win 2).flush t = true) :
    (dats m 0 c).flushed 2 t = ((cfg0.win 2).blk t).view.read (Elt Ideal) (result m c) := by
  have h1 : t.val % 16 = 15 := (flush0_2 t).mp hf
  have h0 : ¬t.val % 16 = 0 := by omega
  have hN : t.val < 256 := lt_of_lt_of_eq t.isLt (show cfg0.N = 256 from N_0)
  obtain ⟨-, -, -, -, e2⟩ := idx_facts t
  rw [Value.flushed2 m c t, lastBlock m c t h0 h1]
  funext y
  have hy : (y 0).val < 512 := (y 0).isLt
  have ey : (y : S512.Idx) = ix1 (⟨(y 0).val, hy⟩ : Fin 512) := funext fun a => Fin.ext (by
    match a with
    | ⟨0, _⟩ => rfl)
  have eE : ((cfg0.win 2).blk t).view.emb y = ix1 (trueRow t ⟨(y 0).val, hy⟩) := funext fun a => Fin.ext (by
    match a with
    | ⟨0, _⟩ => show win0_2.index t 0 * 512 + 1 * (y 0).val = 512 * (t.val / 16) + (y 0).val; rw [e2]; omega)
  rw [View.read_apply]
  show finish (F := Ideal) (outsAt0 m c t.val t.isLt).2 y = result m c (((cfg0.win 2).blk t).view.emb y)
  rw [eE]
  refine (congrArg (finish (F := Ideal) (outsAt0 m c t.val t.isLt).2) ey).trans ?_
  unfold finish
  rw [complement, scratch_eq m c t.val t.isLt ⟨(y 0).val, hy⟩, h1, sup_below_all (by omega)]
  rfl

/-- Every index of the result array lies in the block of the last point of its run. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi : (i 0).val < 8192 := (i 0).isLt
  have hlt : 16 * ((i 0).val / 512) + 15 < cfg0.N := by rw [show cfg0.N = 256 from N_0]; omega
  refine ⟨⟨16 * ((i 0).val / 512) + 15, hlt⟩, (flush0_2 _).mpr (by show (16 * ((i 0).val / 512) + 15) % 16 = 15; omega), ?_⟩
  obtain ⟨-, -, -, -, e2⟩ := idx_facts ⟨16 * ((i 0).val / 512) + 15, hlt⟩
  show i ∈ ((View.whole main_v0).slice (win0_2.rect ⟨16 * ((i 0).val / 512) + 15, hlt⟩)).set
  rw [View.set_slice_whole, Rect.mem_set_unit]
  intro a
  match a with
  | ⟨0, _⟩ =>
    show win0_2.index ⟨16 * ((i 0).val / 512) + 15, hlt⟩ 0 * 512 ≤ (i 0).val
      ∧ (i 0).val < win0_2.index ⟨16 * ((i 0).val / 512) + 15, hlt⟩ 0 * 512 + 512
    rw [e2]
    show (16 * ((i 0).val / 512) + 15) / 16 * 512 ≤ (i 0).val ∧ (i 0).val < (16 * ((i 0).val / 512) + 15) / 16 * 512 + 512
    omega

/-- THE ARRAY after the run is the loss of the two arguments. -/
theorem final (c : Dev nD) : (dats m 0 c).arrAt 2 cfg0.N = result m c :=
  (dats m 0 c).arrAt_eq_of_cover 2 (result m c) (flushed_eq m c) (cover c)

/-- The run, read: the result array at the loss of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Loss

end
-- ==== Proof.lean ====
/-
  A loss over two arrays of 8192 boxes: for each true box, one minus its largest overlap ratio (intersection over
  union, after each box's corners are put in order with a margin of one) with any predicted box.

  The kernel walks a 16 × 16 grid. With a block of 512 true boxes fixed it passes over the sixteen blocks of 512
  predicted boxes, each time forming the 512 × 512 matrix of overlap ratios, taking the maximum down its columns and
  joining it into a scratch row that starts at −∞; after the sixteenth block it stores one minus the row. The
  reference forms the whole 8192 × 8192 matrix, takes the maximum down its columns from −∞, and subtracts from one.
  Entry by entry the two matrices are the same function of a predicted and a true box (the same operations in the same
  order on the same three float words), and on the extended reals a maximum taken block by block from the bottom
  element is the supremum, as is the maximum taken at once: so both result arrays are the loss of the specification.
  No entry needs to be finite for this, and the precondition is never opened.

  The idealization rewrote nothing, so `preserves` is `True`; the three frames are the generated frame runs (the
  reference's, its run with the result dropped).
-/
import proofs.«122908_j63170378990199_1_alg».proof.Defs
import proofs.«122908_j63170378990199_1_alg».proof.Proof.Gen.Kernel
import proofs.«122908_j63170378990199_1_alg».proof.Proof.Gen.Kernel.Skeleton
import proofs.«122908_j63170378990199_1_alg».proof.Proof.Gen.Kernel.Launch
import proofs.«122908_j63170378990199_1_alg».proof.Proof.Gen.Kernel.Points
import proofs.«122908_j63170378990199_1_alg».proof.Proof.Gen.Kernel.Frame
import proofs.«122908_j63170378990199_1_alg».proof.Proof.Gen.KernelIdeal
import proofs.«122908_j63170378990199_1_alg».proof.Proof.Gen.KernelIdeal.Skeleton
import proofs.«122908_j63170378990199_1_alg».proof.Proof.Gen.KernelIdeal.Launch
import proofs.«122908_j63170378990199_1_alg».proof.Proof.Gen.KernelIdeal.Points
import proofs.«122908_j63170378990199_1_alg».proof.Proof.Gen.KernelIdeal.Frame
import proofs.«122908_j63170378990199_1_alg».proof.Proof.Gen.ReferenceIdeal
import proofs.«122908_j63170378990199_1_alg».proof.Proof.Gen.Pre_finite_inputs
import proofs.«122908_j63170378990199_1_alg».proof.Proof.Gen.KernelIdeal.Value
import proofs.«122908_j63170378990199_1_alg».proof.Proof.RefRun
import proofs.«122908_j63170378990199_1_alg».proof.Proof.RefRead
import proofs.«122908_j63170378990199_1_alg».proof.Proof.RefLoss
import proofs.«122908_j63170378990199_1_alg».proof.Proof.KernelLoss
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both result arrays end at the loss of the argument arrays: the kernel's by its run over the grid, the reference's
    by its run read one operation at a time, from memories that agree on the arguments. -/
theorem algebraic : Cert.algebraic_KernelIdeal_ReferenceIdeal := by
  intro m ρ m' ρ' _ hagree
  refine ⟨fun c => Cert.KernelIdeal.Loss.result m c, Cert.KernelIdeal.Loss.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v114_eq, Cert.ReferenceIdeal.Loss.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
